-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel

variable [Facts]

def fn {F : FTy → Type} [FloatOps F] (main_arg0 : FVec F S100000x256 .f32) (main_arg1 : FVec F S100000x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  main_v8
-- ==== Kernel.lean ====
abbrev S100000x256 : Shape := ⟨2, ![100000, 256]⟩
abbrev S100000x8x32 : Shape := ⟨3, ![100000, 8, 32]⟩
abbrev S_ : Shape := ⟨0, ![]⟩
abbrev S100000x8 : Shape := ⟨2, ![100000, 8]⟩
abbrev S8 : Shape := ⟨1, ![8]⟩
abbrev S1x8 : Shape := ⟨2, ![1, 8]⟩
abbrev S100000 : Shape := ⟨1, ![100000]⟩
abbrev S100000x1 : Shape := ⟨2, ![100000, 1]⟩
abbrev S8x100000x256 : Shape := ⟨3, ![8, 100000, 256]⟩
abbrev S1000x256 : Shape := ⟨2, ![1000, 256]⟩
abbrev S1000x8 : Shape := ⟨2, ![1000, 8]⟩
abbrev S8x1000x256 : Shape := ⟨3, ![8, 1000, 256]⟩
abbrev S1000x1 : Shape := ⟨2, ![1000, 1]⟩
abbrev S1x1000x256 : Shape := ⟨3, ![1, 1000, 256]⟩

abbrev nBuf : Space → Nat
  | .hbm => 42
  | .vmem => 6
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x8x32, .f32⟩
  | .hbm, ⟨3, _⟩ => ⟨S_, .f32⟩
  | .hbm, ⟨4, _⟩ => ⟨S100000x8, .f32⟩
  | .hbm, ⟨5, _⟩ => ⟨S_, .f32⟩
  | .hbm, ⟨6, _⟩ => ⟨S100000x8, .f32⟩
  | .hbm, ⟨7, _⟩ => ⟨S100000x8, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S1x8, .f32⟩
  | .hbm, ⟨14, _⟩ => ⟨S100000x8, .f32⟩
  | .hbm, ⟨15, _⟩ => ⟨S100000x8, .f32⟩
  | .hbm, ⟨16, _⟩ => ⟨S100000x8, .f32⟩
  | .hbm, ⟨17, _⟩ => ⟨S_, .f32⟩
  | .hbm, ⟨18, _⟩ => ⟨S8, .f32⟩
  | .hbm, ⟨19, _⟩ => ⟨S1x8, .f32⟩
  | .hbm, ⟨20, _⟩ => ⟨S100000x8, .f32⟩
  | .hbm, ⟨21, _⟩ => ⟨S100000x8, .f32⟩
  | .hbm, ⟨22, _⟩ => ⟨S_, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x8, .f32⟩
  | .hbm, ⟨30, _⟩ => ⟨S100000x8, .f32⟩
  | .hbm, ⟨31, _⟩ => ⟨S_, .f32⟩
  | .hbm, ⟨32, _⟩ => ⟨S100000, .f32⟩
  | .hbm, ⟨33, _⟩ => ⟨S100000x1, .f32⟩
  | .hbm, ⟨34, _⟩ => ⟨S100000x8, .f32⟩
  | .hbm, ⟨35, _⟩ => ⟨S100000x8, .i1⟩
  | .hbm, ⟨36, _⟩ => ⟨S_, .f32⟩
  | .hbm, ⟨37, _⟩ => ⟨S100000x8, .f32⟩
  | .hbm, ⟨38, _⟩ => ⟨S100000x8, .i1⟩
  | .hbm, ⟨39, _⟩ => ⟨S100000x8, .i1⟩
  | .hbm, ⟨40, _⟩ => ⟨S100000x8, .f32⟩
  | .hbm, ⟨41, _⟩ => ⟨S8x100000x256, .f32⟩
  | .local _ .vmem, ⟨0, _⟩ => ⟨S1000x256, .f32⟩
  | .local _ .vmem, ⟨1, _⟩ => ⟨S1000x256, .f32⟩
  | .local _ .vmem, ⟨2, _⟩ => ⟨S1000x8, .f32⟩
  | .local _ .vmem, ⟨3, _⟩ => ⟨S1000x8, .f32⟩
  | .local _ .vmem, ⟨4, _⟩ => ⟨S8x1000x256, .f32⟩
  | .local _ .vmem, ⟨5, _⟩ => ⟨S8x1000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S100000x256_S100000x8x32 : S100000x256.ShapeCasts S100000x8x32
  reducesTo_S100000x8x32_S100000x8_d2 : S100000x8x32.ReducesTo [2] S100000x8
  h_S_ : 0 < S_.numel
  bcast_S_S100000x8 : S_.BroadcastsInDim S100000x8 (![] : Fin 0 → Fin S100000x8.rank)
  reducesTo_S100000x8_S8_d0 : S100000x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  reducesTo_S100000_S_d0 : S100000.ReducesTo [0] S_
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  inb_S1000x256_S1000x256_0_0 : ∀ a, (![0, 0] : Fin 2 → Nat) a + S1000x256.size a ≤ S1000x256.size a
  h_S1000x256 : 0 < S1000x256.numel
  inb_S1000x8_S1000x8_0_0 : ∀ a, (![0, 0] : Fin 2 → Nat) a + S1000x8.size a ≤ S1000x8.size a
  h_S1000x8 : 0 < S1000x8.numel
  shapeCasts_S1000x8_S1000x8 : S1000x8.ShapeCasts S1000x8
  slices_S1000x8_o0_0_S1000x1 : S1000x8.Slices ![0, 0] S1000x1
  broadcasts_S1000x1_S1000x256 : S1000x1.Broadcasts S1000x256
  inb_S8x1000x256_S1x1000x256_0_0_0 : ∀ a, (![0, 0, 0] : Fin 3 → Nat) a + S1x1000x256.size a ≤ S8x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  slices_S1000x8_o0_1_S1000x1 : S1000x8.Slices ![0, 1] S1000x1
  inb_S8x1000x256_S1x1000x256_1_0_0 : ∀ a, (![1, 0, 0] : Fin 3 → Nat) a + S1x1000x256.size a ≤ S8x1000x256.size a
  slices_S1000x8_o0_2_S1000x1 : S1000x8.Slices ![0, 2] S1000x1
  inb_S8x1000x256_S1x1000x256_2_0_0 : ∀ a, (![2, 0, 0] : Fin 3 → Nat) a + S1x1000x256.size a ≤ S8x1000x256.size a
  slices_S1000x8_o0_3_S1000x1 : S1000x8.Slices ![0, 3] S1000x1
  inb_S8x1000x256_S1x1000x256_3_0_0 : ∀ a, (![3, 0, 0] : Fin 3 → Nat) a + S1x1000x256.size a ≤ S8x1000x256.size a
  slices_S1000x8_o0_4_S1000x1 : S1000x8.Slices ![0, 4] S1000x1
  inb_S8x1000x256_S1x1000x256_4_0_0 : ∀ a, (![4, 0, 0] : Fin 3 → Nat) a + S1x1000x256.size a ≤ S8x1000x256.size a
  slices_S1000x8_o0_5_S1000x1 : S1000x8.Slices ![0, 5] S1000x1
  inb_S8x1000x256_S1x1000x256_5_0_0 : ∀ a, (![5, 0, 0] : Fin 3 → Nat) a + S1x1000x256.size a ≤ S8x1000x256.size a
  slices_S1000x8_o0_6_S1000x1 : S1000x8.Slices ![0, 6] S1000x1
  inb_S8x1000x256_S1x1000x256_6_0_0 : ∀ a, (![6, 0, 0] : Fin 3 → Nat) a + S1x1000x256.size a ≤ S8x1000x256.size a
  slices_S1000x8_o0_7_S1000x1 : S1000x8.Slices ![0, 7] S1000x1
  inb_S8x1000x256_S1x1000x256_7_0_0 : ∀ a, (![7, 0, 0] : Fin 3 → Nat) a + S1x1000x256.size a ≤ S8x1000x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x8.size a ≤ S100000x8.size a
  hwx0_1 : ∀ i : grid0.Coords, EltTy.bits .f32 = 32 ∨ (Rect.block (s := S100000x8) S1000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1000x256.size a ≤ S8x100000x256.size a
  hwx0_2 : ∀ i : grid0.Coords, EltTy.bits .f32 = 32 ∨ (Rect.block (s := S8x100000x256) S8x1000x256.size (cc0_transform_2 i) (hinb0_2 i)).WholeWords (EltTy.packing .f32)

variable [Facts₀]

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8x1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000x8x32 : Shape := ⟨3, ![100000, 8, 32]⟩
abbrev S_ : Shape := ⟨0, ![]⟩
abbrev S100000x8 : Shape := ⟨2, ![100000, 8]⟩
abbrev S8 : Shape := ⟨1, ![8]⟩
abbrev S1x8 : Shape := ⟨2, ![1, 8]⟩
abbrev S100000 : Shape := ⟨1, ![100000]⟩
abbrev S100000x1 : Shape := ⟨2, ![100000, 1]⟩
abbrev S8x100000 : Shape := ⟨2, ![8, 100000]⟩
abbrev S8x100000x1 : Shape := ⟨3, ![8, 100000, 1]⟩
abbrev S1x100000x256 : Shape := ⟨3, ![1, 100000, 256]⟩
abbrev S8x100000x256 : Shape := ⟨3, ![8, 100000, 256]⟩

abbrev nBuf : Space → Nat
  | .hbm => 48
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x8x32, .f32⟩
  | .hbm, ⟨3, _⟩ => ⟨S_, .f32⟩
  | .hbm, ⟨4, _⟩ => ⟨S100000x8, .f32⟩
  | .hbm, ⟨5, _⟩ => ⟨S_, .f32⟩
  | .hbm, ⟨6, _⟩ => ⟨S100000x8, .f32⟩
  | .hbm, ⟨7, _⟩ => ⟨S100000x8, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S1x8, .f32⟩
  | .hbm, ⟨14, _⟩ => ⟨S100000x8, .f32⟩
  | .hbm, ⟨15, _⟩ => ⟨S100000x8, .f32⟩
  | .hbm, ⟨16, _⟩ => ⟨S100000x8, .f32⟩
  | .hbm, ⟨17, _⟩ => ⟨S_, .f32⟩
  | .hbm, ⟨18, _⟩ => ⟨S8, .f32⟩
  | .hbm, ⟨19, _⟩ => ⟨S1x8, .f32⟩
  | .hbm, ⟨20, _⟩ => ⟨S100000x8, .f32⟩
  | .hbm, ⟨21, _⟩ => ⟨S100000x8, .f32⟩
  | .hbm, ⟨22, _⟩ => ⟨S_, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x8, .f32⟩
  | .hbm, ⟨30, _⟩ => ⟨S100000x8, .f32⟩
  | .hbm, ⟨31, _⟩ => ⟨S_, .f32⟩
  | .hbm, ⟨32, _⟩ => ⟨S100000, .f32⟩
  | .hbm, ⟨33, _⟩ => ⟨S100000x1, .f32⟩
  | .hbm, ⟨34, _⟩ => ⟨S100000x8, .f32⟩
  | .hbm, ⟨35, _⟩ => ⟨S100000x8, .i1⟩
  | .hbm, ⟨36, _⟩ => ⟨S_, .f32⟩
  | .hbm, ⟨37, _⟩ => ⟨S100000x8, .f32⟩
  | .hbm, ⟨38, _⟩ => ⟨S100000x8, .i1⟩
  | .hbm, ⟨39, _⟩ => ⟨S100000x8, .i1⟩
  | .hbm, ⟨40, _⟩ => ⟨S8x100000, .i1⟩
  | .hbm, ⟨41, _⟩ => ⟨S8x100000x1, .i1⟩
  | .hbm, ⟨42, _⟩ => ⟨S1x100000x256, .f32⟩
  | .hbm, ⟨43, _⟩ => ⟨S_, .f32⟩
  | .hbm, ⟨44, _⟩ => ⟨S8x100000x256, .i1⟩
  | .hbm, ⟨45, _⟩ => ⟨S8x100000x256, .f32⟩
  | .hbm, ⟨46, _⟩ => ⟨S8x100000x256, .f32⟩
  | .hbm, ⟨47, _⟩ => ⟨S8x100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  shapeCasts_S100000x256_S100000x8x32 : S100000x256.ShapeCasts S100000x8x32
  reducesTo_S100000x8x32_S100000x8_d2 : S100000x8x32.ReducesTo [2] S100000x8
  h_S_ : 0 < S_.numel
  bcast_S_S100000x8 : S_.BroadcastsInDim S100000x8 (![] : Fin 0 → Fin S100000x8.rank)
  reducesTo_S100000x8_S8_d0 : S100000x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  reducesTo_S100000_S_d0 : S100000.ReducesTo [0] S_
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  transposes_S100000x8_S8x100000_1_0 : S100000x8.Transposes [1, 0] S8x100000
  bcast_S8x100000_S8x100000x1_0_1 : S8x100000.BroadcastsInDim S8x100000x1 (![0, 1] : Fin 2 → Fin S8x100000x1.rank)
  bcast_S100000x256_S1x100000x256_1_2 : S100000x256.BroadcastsInDim S1x100000x256 (![1, 2] : Fin 2 → Fin S1x100000x256.rank)
  bcast_S8x100000x1_S8x100000x256_0_1_2 : S8x100000x1.BroadcastsInDim S8x100000x256 (![0, 1, 2] : Fin 3 → Fin S8x100000x256.rank)
  bcast_S1x100000x256_S8x100000x256_0_1_2 : S1x100000x256.BroadcastsInDim S8x100000x256 (![0, 1, 2] : Fin 3 → Fin S8x100000x256.rank)
  bcast_S_S8x100000x256 : S_.BroadcastsInDim S8x100000x256 (![] : Fin 0 → Fin S8x100000x256.rank)

variable [Facts₀]

class Facts : Prop extends Facts₀ where

variable [Facts]
-- ==== Proof.MaskedCopies.lean ====
/-
  The result array, as one function of its two ingredients, and the one law the two programs differ by.

  There are 100000 nodes with 256 features each, and 8 communities. A membership table says, for every node `n` and
  community `c`, whether `n` belongs to `c` (one bit). The result has one slab per community: slab `c` is the
  feature matrix with every row of a node outside `c` set to zero,

      copies x b (c, n, f) = x (n, f)   if b (n, c) = 1,        0   otherwise.

  One program selects between `x (n, f)` and `0` on the bit; the other multiplies `x (n, f)` by the bit read as the
  number `0` or `1`. On the extended reals these agree for EVERY `x (n, f)`, the two infinities included: `x * 1 = x`
  and `x * 0 = 0` hold there without exception (`0 * ⊤ = 0` is the convention of the extended reals). So no finiteness
  of the features is used.
-/
import Idealize.ShloMosaic.PureOps.Ideal
import Idealize.ShloMosaic.Lib.ValueIdx

noncomputable section

namespace Cert.MaskedCopies

open Idealize.ShloMosaic Idealize.ShloMosaic.ValueIdx

/-- Node by feature. -/
abbrev Feat : Shape := ⟨2, ![100000, 256]⟩
/-- Node by community. -/
abbrev Memb : Shape := ⟨2, ![100000, 8]⟩
/-- Community by node by feature. -/
abbrev Slab : Shape := ⟨3, ![8, 100000, 256]⟩

/-- Slab `c` of `copies x b` is `x` with the rows of the nodes outside community `c` zeroed. -/
def copies (x : Feat.Idx → EReal) (b : Memb.Idx → BitVec 1) : Slab.Idx → EReal := fun i =>
  let c : Fin 8 := i 0
  let n : Fin 100000 := i 1
  let f : Fin 256 := i 2
  Scalar.select (b (ix2 n c)) (x (ix2 n f)) 0

/-- `copies` at explicit coordinates. -/
theorem copies_apply (x : Feat.Idx → EReal) (b : Memb.Idx → BitVec 1) (c : Fin 8) (n : Fin 100000) (f : Fin 256) :
    copies x b (ix3 c n f) = Scalar.select (b (ix2 n c)) (x (ix2 n f)) 0 := rfl

/-- A bit is `0` or `1`. -/
theorem bit_cases (b : BitVec 1) : b = 0#1 ∨ b = 1#1 := by
  revert b; decide

/-- THE LAW: multiplying by a bit read as a number is selecting on the bit, for every extended real. -/
theorem mul_bit (x : EReal) (b : BitVec 1) : x * (((b.toNat : ℕ) : ℝ) : EReal) = Scalar.select b x 0 := by
  rcases bit_cases b with rfl | rfl
  · show x * (((0 : ℕ) : ℝ) : EReal) = 0
    rw [Nat.cast_zero, EReal.coe_zero, mul_zero]
  · show x * (((1 : ℕ) : ℝ) : EReal) = x
    rw [Nat.cast_one, EReal.coe_one, mul_one]

/-- The same array written with a product: slab `c`, node `n`, feature `f` of `scaled x w` is `x (n, f)` times the
    weight `w (n, c)`. -/
def scaled (x : Feat.Idx → EReal) (w : Memb.Idx → EReal) : Slab.Idx → EReal := fun i =>
  let c : Fin 8 := i 0
  let n : Fin 100000 := i 1
  let f : Fin 256 := i 2
  x (ix2 n f) * w (ix2 n c)

/-- `scaled` at explicit coordinates. -/
theorem scaled_apply (x : Feat.Idx → EReal) (w : Memb.Idx → EReal) (c : Fin 8) (n : Fin 100000) (f : Fin 256) :
    scaled x w (ix3 c n f) = x (ix2 n f) * w (ix2 n c) := rfl

/-- A product of an entry of `x` and an entry of `w` whose coordinates are those of the slab index `i` — the node and
    feature of `i` for `x`, the node and community of `i` for `w` — is `scaled x w` at `i`. (Stated with the coordinates
    as natural numbers, which is how a block's position inside an array is computed.) -/
theorem scaled_of_coords (x : Feat.Idx → EReal) (w : Memb.Idx → EReal) (i : Slab.Idx) (p : Feat.Idx) (q : Memb.Idx)
    (hp0 : (p 0).val = (i 1).val) (hp1 : (p 1).val = (i 2).val)
    (hq0 : (q 0).val = (i 1).val) (hq1 : (q 1).val = (i 0).val) :
    x p * w q = scaled x w i := by
  have hp : p = ix2 (i 1) (i 2) := funext fun a => Fin.ext (by
    match a with
    | ⟨0, _⟩ => exact hp0
    | ⟨1, _⟩ => exact hp1)
  have hq : q = ix2 (i 1) (i 0) := funext fun a => Fin.ext (by
    match a with
    | ⟨0, _⟩ => exact hq0
    | ⟨1, _⟩ => exact hq1)
  rw [hp, hq]
  rfl

/-- With the weights the bits of a membership table read as numbers, `scaled` is `copies` (`mul_bit`, entry by entry). -/
theorem scaled_bits (x : Feat.Idx → EReal) (b : Memb.Idx → BitVec 1) :
    scaled x (fun j => ((((b j).toNat : ℕ) : ℝ) : EReal)) = copies x b :=
  funext fun _ => mul_bit _ _

end Cert.MaskedCopies

end
-- ==== Proof.KernelTable.lean ====
/-
  What the kernel's host operations leave for its region: the membership table, and the table read as numbers.

  Before its one region the kernel computes on the host, from the second argument `z` alone, a membership table
  (node by community, one bit each): group means of `z`, a softmax down each community's column, each node's weight
  against all the other nodes, and the two tests "is the row's maximum" or "is at least one". It then converts every
  bit to the number `0` or `1`; that converted table is the array the region's second input window stages.

  The reference computes its membership table by the SAME operations, in the same order, with the same constants.
  So the kernel's table is the reference's membership stage of `z`: the two are one composed term of `z`, compared
  whole and never opened — nothing about means, softmax or maxima is used, only that both sides apply the same
  operations to the same array.
-/
import proofs.«162636_j13365938225805_1_alg».proof.Proof.Gen.KernelIdeal.Frame
import proofs.«162636_j13365938225805_1_alg».proof.Proof.Gen.ReferenceIdeal.Read
import Idealize.ShloMosaic.Lib.StableHlo.Run

noncomputable section

namespace Cert.KernelIdeal.HostPrefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The array the second input window stages is the membership table with every bit read as `0` or `1`: the
    conversion is the last host operation before the region, and nothing after it writes the table. -/
theorem weights_eq (c : Dev nD) :
    (V m c main_v29 : S100000x8.Idx → EReal) = uitofp (F := Ideal) .f32 (V m c main_v28 : S100000x8.Idx → BitVec 1) := by
  dsimp only [Gen.V, Gen.hostOps0]
  after_results

set_option maxRecDepth 16384 in
set_option maxHeartbeats 2000000 in
/-- The kernel's membership table is the reference's membership stage of the second argument: the same
    operations applied to the same array. -/
theorem table_eq (c : Dev nD) :
    (V m c main_v28 : S100000x8.Idx → BitVec 1)
      = Cert.ReferenceIdeal.Read.val_main_v28 (F := Ideal) (m ((c : Thread nD τ).loc main_arg1)) := by
  dsimp only [Gen.V, Gen.hostOps0]
  after_results_simp
  rfl

end Cert.KernelIdeal.HostPrefix

end
-- ==== Proof.KernelSlabs.lean ====
/-
  The kernel's result array is `copies` of the feature matrix and of the reference's membership stage.

  The region runs over 100 grid points. Point `t` stages rows `1000 t … 1000 t + 999` of the feature matrix (a
  1000 by 256 block) and the same rows of the membership table read as numbers (1000 by 8), and writes back the block
  of the result made of those 1000 nodes in all 8 slabs (8 by 1000 by 256). Inside the block, slab `c`, row `r`,
  feature `f` holds the feature block's `(r, f)` times the weight block's `(r, c)`: the body takes column `c` of the
  weights, spreads it along the features and multiplies, once per slab.

  So what point `t` writes back is block `t` of ONE array, `scaled x w` — entry `(c, n, f)` is `x (n, f) * w (n, c)` —:
  a block's position in its array is the block index times the block size plus the position inside the block, and the
  three windows' block indices move together (row block `t` everywhere, block `0` on the other axes). Every node `n`
  lies in the block of point `n / 1000`, so the 100 blocks cover the result, which therefore ends at `scaled x w`. With
  `w` the membership bits read as numbers this is `copies` (the law `mul_bit`), and the kernel's membership table is the
  reference's membership stage of the second argument.
-/
import proofs.«162636_j13365938225805_1_alg».proof.Proof.Gen.KernelIdeal.Value
import proofs.«162636_j13365938225805_1_alg».proof.Proof.MaskedCopies
import proofs.«162636_j13365938225805_1_alg».proof.Proof.KernelTable
import Idealize.ShloMosaic.Lib.Pipeline.Value
import Idealize.ShloMosaic.Lib.ValueIdx

set_option maxRecDepth 16384

noncomputable section

namespace Cert.KernelIdeal.Slabs

open Cert.KernelIdeal Cert.KernelIdeal.Gen Cert.KernelIdeal.Value Cert.MaskedCopies
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One point -/

theorem zero_offsets : (![0, 0] : Fin 2 → Nat) = fun _ => 0 := funext fun a => by fin_cases a <;> rfl

/-- What the body leaves in the result's block from a feature block `x0` and a weight block `x1`: at slab `c`, row
    `r`, feature `f` the product `x0 (r, f) * x1 (r, c)` (the body loads both blocks whole; its eight stores, one per
    slab, tile the block). -/
theorem block_apply (x0 : Vec Ideal S1000x256 .f32) (x1 : Vec Ideal S1000x8 .f32) (y : S8x1000x256.Idx) :
    out0_2 x0 x1 y = x0 (ix2_0 y) * x1 (ix2_1 y) := by
  unfold out0_2
  simp only [View.ld_unit_zero (S := S1000x256) zero_offsets, View.ld_unit_zero (S := S1000x8) zero_offsets]
  exact canon2_eq x0 x1 y

/-- The three windows' block indices, decided over the 100 points: the result's block index is `(0, t', 0)` and both
    inputs' is `(t', 0)` for one and the same row block `t'`. -/
theorem index_facts : ∀ t : Fin cfg0.N,
    win0_2.index t (0 : Fin 3) = 0 ∧ win0_2.index t (2 : Fin 3) = 0
    ∧ win0_0.index t (0 : Fin 2) = win0_2.index t (1 : Fin 3) ∧ win0_0.index t (1 : Fin 2) = 0
    ∧ win0_1.index t (0 : Fin 2) = win0_2.index t (1 : Fin 3) ∧ win0_1.index t (1 : Fin 2) = 0 :=
  (by decide +kernel : ∀ t : Fin grid0.N, _)

/-- WHAT POINT `t` WRITES BACK is block `t` of `scaled` of the feature matrix and the weights as the region finds them. -/
theorem flushed_eq (c : Dev nD) (t : Fin cfg0.N) :
    (dats m 0 c).flushed 2 t
      = ((cfg0.win 2).blk t).view.read (Elt Ideal) (scaled (V m c main_arg0) (V m c main_v29)) := by
  rw [flushed2 m c t]
  obtain ⟨e0, e2, a0, a1, b0, b1⟩ := index_facts t
  funext j
  refine (block_apply (iblk m c 0 t) (iblk m c 1 t) ((cfg0.win 2).xinj (grid0.coords t) j)).trans ?_
  have h0 : (j 0).val < 8 := (j 0).isLt
  have h1 : (j 1).val < 1000 := (j 1).isLt
  have h2 : (j 2).val < 256 := (j 2).isLt
  refine scaled_of_coords (V m c main_arg0 : S100000x256.Idx → EReal) (V m c main_v29 : S100000x8.Idx → EReal)
    (((cfg0.win 2).blk t).view.emb j)
    (((cfg0.win 0).blk t).view.emb (ix2_0 ((cfg0.win 2).xinj (grid0.coords t) j)))
    (((cfg0.win 1).blk t).view.emb (ix2_1 ((cfg0.win 2).xinj (grid0.coords t) j))) ?_ ?_ ?_ ?_
  · show win0_0.index t (0 : Fin 2) * 1000 + 1 * (j 1).val = win0_2.index t (1 : Fin 3) * 1000 + 1 * (j 1).val
    omega
  · show win0_0.index t (1 : Fin 2) * 256 + 1 * (j 2).val = win0_2.index t (2 : Fin 3) * 256 + 1 * (j 2).val
    omega
  · show win0_1.index t (0 : Fin 2) * 1000 + 1 * (j 1).val = win0_2.index t (1 : Fin 3) * 1000 + 1 * (j 1).val
    omega
  · show win0_1.index t (1 : Fin 2) * 8 + 1 * (j 0).val = win0_2.index t (0 : Fin 3) * 8 + 1 * (j 0).val
    omega

/-! ## The 100 blocks cover the result -/

/-- An index of the result is in point `t`'s block iff each coordinate is in the block's range on its axis. -/
theorem mem_block (t : Fin cfg0.N) (i : S8x100000x256.Idx) :
    i ∈ ((cfg0.win 2).blk t).view.set ↔ ∀ a : Fin 3, win0_2.index t a * S8x1000x256.size a ≤ (i a).val
      ∧ (i a).val < win0_2.index t a * S8x1000x256.size a + S8x1000x256.size a := by
  show i ∈ ((View.whole main_v30).slice (win0_2.rect t)).set ↔ _
  rw [View.set_slice_whole, Rect.mem_set_unit]
  exact Iff.rfl

/-- Every row block is some point's (decided over the grid). -/
theorem point_of_rows : ∀ q : Fin 100, ∃ t : Fin cfg0.N, win0_2.index t = ![0, q.val, 0] :=
  (by decide +kernel : ∀ q : Fin 100, ∃ t : Fin grid0.N, win0_2.index t = ![0, q.val, 0])

/-- Every index of the result is in some point's block: node `n` is in the row block `n / 1000`. -/
theorem covered (i : S8x100000x256.Idx) :
    ∃ t : Fin cfg0.N, (cfg0.win 2).flush t = true ∧ i ∈ ((cfg0.win 2).blk t).view.set := by
  have hi0 : (i 0).val < 8 := (i 0).isLt
  have hi1 : (i 1).val < 100000 := (i 1).isLt
  have hi2 : (i 2).val < 256 := (i 2).isLt
  obtain ⟨t, ht⟩ := point_of_rows ⟨(i 1).val / 1000, by omega⟩
  have q0 : win0_2.index t (0 : Fin 3) = 0 := congrFun ht 0
  have q1 : win0_2.index t (1 : Fin 3) = (i 1).val / 1000 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 8 ≤ (i 0).val ∧ (i 0).val < win0_2.index t (0 : Fin 3) * 8 + 8
    omega
  | ⟨1, _⟩ =>
    show win0_2.index t (1 : Fin 3) * 1000 ≤ (i 1).val ∧ (i 1).val < win0_2.index t (1 : Fin 3) * 1000 + 1000
    omega
  | ⟨2, _⟩ =>
    show win0_2.index t (2 : Fin 3) * 256 ≤ (i 2).val ∧ (i 2).val < win0_2.index t (2 : Fin 3) * 256 + 256
    omega

/-- So the result array ends at `scaled` of the feature matrix and the weights as the region finds them. -/
theorem final (c : Dev nD) : (dats m 0 c).arrAt 2 cfg0.N = scaled (V m c main_arg0) (V m c main_v29) :=
  (dats m 0 c).arrAt_eq_of_cover 2 (scaled (V m c main_arg0) (V m c main_v29)) (fun t _ => flushed_eq m c t) covered

/-! ## In terms of the arguments -/

/-- The feature matrix is the first argument as launched, the weights are the membership bits read as numbers, and
    the membership table is the reference's membership stage of the second argument: the result array is `copies`. -/
theorem array_eq (c : Dev nD) :
    scaled (V m c main_arg0) (V m c main_v29)
      = copies (m ((c : Thread nD τ).loc main_arg0))
          (Cert.ReferenceIdeal.Read.val_main_v28 (F := Ideal) (m ((c : Thread nD τ).loc main_arg1))) := by
  rw [V_main_arg0, HostPrefix.weights_eq, HostPrefix.table_eq]
  exact scaled_bits _ _

/-- THE KERNEL'S RUN: every weakly fair execution terminates with the result at `copies` of the first argument and of
    the membership stage of the second, the second result at that membership stage, and both arguments unchanged.
    (The membership table is no window's array: the region leaves it as it found it.) -/
theorem run : θ_run defs (onTc (τ := τ) (main (F := Ideal))) ⟨m, fun _ => 0, ρ⟩ fun r => ∀ c : Dev nD,
      r.2.mem ((c : Thread nD τ).loc main_v30)
        = copies (m ((c : Thread nD τ).loc main_arg0))
            (Cert.ReferenceIdeal.Read.val_main_v28 (F := Ideal) (m ((c : Thread nD τ).loc main_arg1)))
      ∧ r.2.mem ((c : Thread nD τ).loc main_v28)
        = Cert.ReferenceIdeal.Read.val_main_v28 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans ((final m c).trans (array_eq m c)),
      ((h c).2 main_v28 (Pipeline.mem_restRefs_of main_v28 (by decide) (by decide))).trans (HostPrefix.table_eq m c),
      kept_main_arg0 m r h c,
      kept_main_arg1 m r h c⟩)
    (run_main m ρ)

end Cert.KernelIdeal.Slabs

end
-- ==== Proof.ReferenceSlabs.lean ====
/-
  The reference's result array is `copies` of the feature matrix and of its own membership table.

  The reference transposes the membership table to community by node, adds a unit feature axis and spreads it over the
  256 features; it adds a unit community axis to the feature matrix and spreads it over the 8 communities; it spreads the
  constant zero; and it selects. Read at slab `c`, node `n`, feature `f` the three spread arrays are the bit of
  `(n, c)`, the entry `x (n, f)` and `0`: the layout operations only move indices, and the composed index maps are
  `(c, n, f) ↦ (n, c)` for the table and `(c, n, f) ↦ (n, f)` for the features.
-/
import proofs.«162636_j13365938225805_1_alg».proof.Proof.Gen.ReferenceIdeal.Read
import proofs.«162636_j13365938225805_1_alg».proof.Proof.MaskedCopies
import Idealize.ShloMosaic.Lib.ValueIdx
import Idealize.ShloMosaic.PureOps.Ideal.Laws

noncomputable section

namespace Cert.ReferenceIdeal.RefValue

open Cert.ReferenceIdeal Cert.ReferenceIdeal.Read Cert.MaskedCopies
open Idealize.ShloMosaic Idealize.ShloMosaic.ValueIdx

/-- Through the spread over features, the added unit axis and the transpose, slab `c`, node `n`, feature `f` reads
    the membership table at node `n`, community `c`. -/
theorem table_index (c : Fin 8) (n : Fin 100000) (f : Fin 256) :
    idx_main_v29 (idx_main_v30 (idx_main_call0_v0 (ix3 c n f))) = ix2 n c :=
  funext fun a => Fin.ext (by match a with | ⟨0, _⟩ => rfl | ⟨1, _⟩ => rfl)

/-- Through the spread over communities and the added unit axis, slab `c`, node `n`, feature `f` reads the feature
    matrix at node `n`, feature `f`. -/
theorem feature_index (c : Fin 8) (n : Fin 100000) (f : Fin 256) :
    idx_main_v31 (idx_main_call0_v1 (ix3 c n f)) = ix2 n f :=
  funext fun a => Fin.ext (by match a with | ⟨0, _⟩ => rfl | ⟨1, _⟩ => rfl)

/-- The reference's result stage is `copies` of the feature matrix and of the reference's membership stage. -/
theorem result_eq (x z : S100000x256.Idx → EReal) :
    val_main_v32 (F := Ideal) x z = copies x (val_main_v28 (F := Ideal) z) := by
  funext i
  obtain ⟨c, n, f, rfl⟩ : ∃ (c : Fin 8) (n : Fin 100000) (f : Fin 256), i = ix3 c n f := ⟨i 0, i 1, i 2, eq_ix3 i⟩
  rw [val_main_v32_apply, val_main_call0_v0_apply, val_main_v30_apply, val_main_v29_apply, val_main_call0_v1_apply,
    val_main_v31_apply, val_main_call0_v2_apply, val_main_cst_8_apply, table_index, feature_index, copies_apply,
    Ideal.ofBits_def, Ideal.ofBits_zero_f32]

end Cert.ReferenceIdeal.RefValue

end
-- ==== Proof.lean ====
/-
  A kernel that splits a node-feature matrix into one masked copy per community, against its reference.

  Both programs take a feature matrix `x` (100000 nodes by 256 features) and a second matrix `z` (100000 by 256) and
  return two results: a membership table (node by community, 8 communities, one bit each), computed from `z` alone, and
  the array of 8 slabs in which slab `c` is `x` with the rows of the nodes outside community `c` set to zero.

  THE MEMBERSHIP TABLE. Both programs compute it on the host by the same operations in the same order with the same
  constants (group means of `z`, a softmax down each column, each node's weight against the others, the tests "is the
  row's maximum" or "is at least one"). The two tables are therefore one composed term of `z`; they are compared whole
  (Proof/KernelTable.lean) and nothing about what the operations compute is used.

  THE SLABS. The reference selects, entry by entry, between `x (n, f)` and `0` on the bit of `(n, c)`
  (Proof/ReferenceSlabs.lean: its transposes and broadcasts only move indices). The kernel converts the bits to the numbers
  `0` and `1` and, in a region of 100 grid points of 1000 nodes each, multiplies: block by block it writes
  `x (n, f) * w (n, c)` (Proof/KernelSlabs.lean: each point writes its block of one whole-array function, and the blocks
  cover the result). On the extended reals `x * 1 = x` and `x * 0 = 0` for EVERY `x`, infinite ones included, so a product
  by the bit is the selection on the bit (Proof/MaskedCopies.lean, `mul_bit`). Both results are thus the same function
  of the arguments, and the precondition (finite inputs) is not used by the value claim: it is only carried.

  The three frame claims are the generated frames (the reference's is its generated run with the results dropped), and
  the idealization rewrote no operation, so that claim is `True`.
-/
import proofs.«162636_j13365938225805_1_alg».proof.Defs
import proofs.«162636_j13365938225805_1_alg».proof.Proof.Gen.Kernel
import proofs.«162636_j13365938225805_1_alg».proof.Proof.Gen.Kernel.Skeleton
import proofs.«162636_j13365938225805_1_alg».proof.Proof.Gen.Kernel.Launch
import proofs.«162636_j13365938225805_1_alg».proof.Proof.Gen.Kernel.Points
import proofs.«162636_j13365938225805_1_alg».proof.Proof.Gen.Kernel.Frame
import proofs.«162636_j13365938225805_1_alg».proof.Proof.Gen.KernelIdeal
import proofs.«162636_j13365938225805_1_alg».proof.Proof.Gen.KernelIdeal.Skeleton
import proofs.«162636_j13365938225805_1_alg».proof.Proof.Gen.KernelIdeal.Launch
import proofs.«162636_j13365938225805_1_alg».proof.Proof.Gen.KernelIdeal.Points
import proofs.«162636_j13365938225805_1_alg».proof.Proof.Gen.KernelIdeal.Frame
import proofs.«162636_j13365938225805_1_alg».proof.Proof.Gen.ReferenceIdeal
import proofs.«162636_j13365938225805_1_alg».proof.Proof.Gen.Pre_finite_inputs
import proofs.«162636_j13365938225805_1_alg».proof.Proof.Gen.KernelIdeal.Value
import proofs.«162636_j13365938225805_1_alg».proof.Proof.Gen.ReferenceIdeal.Run
import proofs.«162636_j13365938225805_1_alg».proof.Proof.Gen.ReferenceIdeal.Read
import proofs.«162636_j13365938225805_1_alg».proof.Proof.MaskedCopies
import proofs.«162636_j13365938225805_1_alg».proof.Proof.KernelTable
import proofs.«162636_j13365938225805_1_alg».proof.Proof.KernelSlabs
import proofs.«162636_j13365938225805_1_alg».proof.Proof.ReferenceSlabs
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with what it says of the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Reading the kernel on the extended reals rewrote no operation. -/
theorem preserves : Cert.preserves_Kernel_KernelIdeal := trivial

/-- From memories agreeing on `x` and `z` both programs end with the slabs at `copies x (table z)` and the membership
    table at `table z`, `table` being the reference's membership stage: the kernel by its run (Proof/KernelSlabs.lean), the
    reference by its run read back stage by stage (Proof/ReferenceSlabs.lean). -/
theorem algebraic : Cert.algebraic_KernelIdeal_ReferenceIdeal := by
  intro m ρ m' ρ' _ hagree
  refine ⟨_, _, Cert.KernelIdeal.Slabs.run m ρ, ?_⟩
  refine (θ_run Cert.ReferenceIdeal.defs _ _).mono
    (fun r h c => ⟨(h c).1.trans ?_, (h c).2.1.trans ?_, (h c).2.2⟩)
    (Cert.ReferenceIdeal.Value.run (F := Ideal) m' ρ')
  · rw [Cert.ReferenceIdeal.Read.val_main_v32_eq, Cert.ReferenceIdeal.RefValue.result_eq, (hagree c).1, (hagree c).2]
  · rw [Cert.ReferenceIdeal.Read.val_main_v28_eq, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
